-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x64 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 46
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000x128, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x1, .f32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S1x128, .f32⟩
  | .hbm, ⟨29, _⟩ => ⟨S50000x64, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x64, .f32⟩
  | .hbm, ⟨39, _⟩ => ⟨S_, .f32⟩
  | .hbm, ⟨40, _⟩ => ⟨S50000x64, .f32⟩
  | .hbm, ⟨41, _⟩ => ⟨S800000x1, .i32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 51
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000x128, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x1, .f32⟩
  | .hbm, ⟨22, _⟩ => ⟨S800000x128, .f32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S50000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S1x64, .f32⟩
  | .hbm, ⟨49, _⟩ => ⟨S50000x64, .f32⟩
  | .hbm, ⟨50, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel program's run, with its result array named.

  The program is five segments: four host operations that split the edge list into source and destination
  columns; the first matrix-product region; seventeen host operations (gather the product's rows at the sources,
  scale each by its edge weight, add them into the destinations' rows, and reshape the first bias to one row); the
  second region (bias, rectifier, second matrix product); sixteen host operations (gather, scatter-add, second
  bias). Every weakly fair execution terminates without a fault; the argument arrays end as launched, and the
  result buffer ends at the last segment boundary's contents, which the fold `Gen.W5` through the segments names
  (each host stretch a `StableHlo.after`, each region its arrays at what its write-backs leave). The value of that
  fold at the result buffer is read in the modules that import this one.
-/
import proofs.«113820_j12567074308662_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters, every weakly fair execution of the program terminates, nothing faulting,
    with the result buffer at the last boundary's contents and every argument array as launched: the launch over
    the five segments, the last thread state read against the final state, the result buffer being one of the
    unscoped buffers that state holds. -/
theorem run : θ_run defs (onTc (τ := τ) (main (F := F))) ⟨m, fun _ => 0, ρ⟩ (fun r => ∀ c : Dev nD,
      r.2.mem ((c.tc : Thread nD τ).loc main_v32) = W5 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v32 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.RunValue

end
-- ==== Proof.KernelChain.lean ====
/-
  The host operations of the idealized kernel program, stretch by stretch, as functions of what they read.

  The program's host lines do three things. The first stretch cuts the edge list `e : i32[2, E]` into its row of
  source nodes and its row of destination nodes (`srcVec`, `dstVec`). The second takes the first dense step's result
  `h`, gathers row `src k` of it for every edge `k` (a negative source is first wrapped by the node count), scales
  that row by the edge's weight, and adds it into row `dst k` of a zero array — `mid h s d w` — and beside that
  reshapes the first bias to one row. The third does the same gather and scatter-addition on the second dense step's
  result, without weights, and adds the second bias to every row — `tail z s d b`.
  The gathers and scatter-additions are never opened: the reference applies the same operations to the same operands,
  so both programs' results are `tail (…) …` of arrays that are then shown equal.
  For ANY buffer contents `U` on entry to a stretch, the lemmas below say what each buffer read later holds on exit.
-/
import proofs.«113820_j12567074308662_1_alg».proof.Proof.Gen.KernelIdeal.Launch
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable {F : FTy → Type} [FloatOps F]

/-! ## The chains -/

/-- The edges' source nodes: row 0 of the edge list, as a vector. -/
def srcVec (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The edges' destination nodes: row 1 of the edge list, as a vector. -/
def dstVec (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The gather's start indices: each source, wrapped by the node count when negative, as a column. -/
def srcCol (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The scatter's indices: the destinations as a column. -/
def dstCol (d : (⟨S800000, .i32⟩ : BufTy).Contents (Elt F)) : (⟨S800000x1, .i32⟩ : BufTy).Contents (Elt F) :=
  broadcastInDim S800000x1 ![0] bcast_S800000_S800000x1_0 d

/-- The first aggregation: row `dst k` of the result collects `w k` times row `src k` of `h`, over all edges `k`. -/
def mid (h : (⟨S50000x128, .f32⟩ : BufTy).Contents (Elt F)) (s d : (⟨S800000, .i32⟩ : BufTy).Contents (Elt F))
    (w : (⟨S800000, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (dstCol d)
    (mulf (Host.gather gather_S50000x128_S800000x1_S800000x128_1_0_n_n_0_1_1128 h (srcCol s))
      (broadcastInDim S800000x128 ![0, 1] bcast_S800000x1_S800000x128_0_1
        (broadcastInDim S800000x1 ![0] bcast_S800000_S800000x1_0 w)))

/-- The second aggregation and the last bias: row `dst k` collects row `src k` of `z` over all edges `k`, and
    `b` is added to every row. -/
def tail (z : (⟨S50000x64, .f32⟩ : BufTy).Contents (Elt F)) (s d : (⟨S800000, .i32⟩ : BufTy).Contents (Elt F))
    (b : (⟨S64, .f32⟩ : BufTy).Contents (Elt F)) : (⟨S50000x64, .f32⟩ : BufTy).Contents (Elt F) :=
  addf
    (Host.scatterAdd scatter_S50000x64_S800000x1_S800000x64_1_0_0_1
      (broadcastInDim S50000x64 ![] bcast_S_S50000x64 (constant S_ .f32 0x00000000#32))
      (dstCol d)
      (Host.gather gather_S50000x64_S800000x1_S800000x64_1_0_n_n_0_1_164 z (srcCol s)))
    (broadcastInDim S50000x64 ![0, 1] bcast_S1x64_S50000x64_0_1 (broadcastInDim S1x64 ![1] bcast_S64_S1x64_1 b))

variable (U : Valuation τ sig (Elt F))

/-! ## The first stretch: the edge list cut in two -/

theorem ops0_v1 : after hostOps0 U (Proc.devRef .tc main_v1) = srcVec (U (Proc.devRef .tc main_arg1)) := by
  after_results; rfl
theorem ops0_v3 : after hostOps0 U (Proc.devRef .tc main_v3) = dstVec (U (Proc.devRef .tc main_arg1)) := by
  after_results; rfl
theorem ops0_arg0 : after hostOps0 U (Proc.devRef .tc main_arg0) = U (Proc.devRef .tc main_arg0) := by after_results
theorem ops0_arg2 : after hostOps0 U (Proc.devRef .tc main_arg2) = U (Proc.devRef .tc main_arg2) := by after_results
theorem ops0_arg3 : after hostOps0 U (Proc.devRef .tc main_arg3) = U (Proc.devRef .tc main_arg3) := by after_results
theorem ops0_arg4 : after hostOps0 U (Proc.devRef .tc main_arg4) = U (Proc.devRef .tc main_arg4) := by after_results
theorem ops0_arg5 : after hostOps0 U (Proc.devRef .tc main_arg5) = U (Proc.devRef .tc main_arg5) := by after_results
theorem ops0_arg6 : after hostOps0 U (Proc.devRef .tc main_arg6) = U (Proc.devRef .tc main_arg6) := by after_results

/-! ## The second stretch: the first aggregation, and the bias as one row -/

theorem ops1_v17 : after hostOps1 U (Proc.devRef .tc main_v17)
    = mid (U (Proc.devRef .tc main_v4)) (U (Proc.devRef .tc main_v1)) (U (Proc.devRef .tc main_v3)) (U (Proc.devRef .tc main_arg2)) := by
  after_results; rfl
theorem ops1_v18 : after hostOps1 U (Proc.devRef .tc main_v18)
    = (shapeCast S1x128 (U (Proc.devRef .tc main_arg4)) shapeCasts_S128_S1x128 : (⟨S1x128, .f32⟩ : BufTy).Contents (Elt F)) := by
  after_results; rfl
theorem ops1_arg5 : after hostOps1 U (Proc.devRef .tc main_arg5) = U (Proc.devRef .tc main_arg5) := by after_results
theorem ops1_arg6 : after hostOps1 U (Proc.devRef .tc main_arg6) = U (Proc.devRef .tc main_arg6) := by after_results
theorem ops1_v1 : after hostOps1 U (Proc.devRef .tc main_v1) = U (Proc.devRef .tc main_v1) := by after_results
theorem ops1_v3 : after hostOps1 U (Proc.devRef .tc main_v3) = U (Proc.devRef .tc main_v3) := by after_results

/-! ## The third stretch: the second aggregation and the last bias -/

theorem ops2_v32 : after hostOps2 U (Proc.devRef .tc main_v32)
    = tail (U (Proc.devRef .tc main_v19)) (U (Proc.devRef .tc main_v1)) (U (Proc.devRef .tc main_v3)) (U (Proc.devRef .tc main_arg6)) := by
  after_results_simp
  rfl

end Cert.KernelIdeal.Chain

end
-- ==== Proof.LibDenseRows.lean ====
/-
  A dense layer read one row at a time, on the extended reals.

  For an `[R, K]` array `a`, a `[K, N]` array `w` and an `[N]` array `b`, row `r` of `a · w + b` is
  `n ↦ (∑ k, a r k * w k n) + b n`: it depends on row `r` of `a` alone. The lemmas here read that row off the
  two spellings a program gives the layer — a matrix product accumulated into the zero splat plus a
  `[N] → [1, N] → [R, N]` cast-and-broadcast of the bias, and a host `dot_general` plus the bias broadcast in
  dimension twice — for the plain dimension numbers (contract the left operand's last axis with the right operand's
  first, no batch axis), at any extents. Both spellings give the same function `affine` of the row, so a chain of
  layers computed on a block of rows and the same chain computed on all rows agree row by row.
-/
import Idealize.ShloMosaic.Lib.ValueLayout
import Idealize.ShloMosaic.Lib.ValueIdx
import Idealize.ShloMosaic.PureOps.Ideal.Laws

noncomputable section

namespace Cert.DenseRows

open Idealize.ShloMosaic Idealize.ShloMosaic.ValueIdx

/-! ## Rows, matrices, vectors as plain functions -/

/-- Row `r` of an `[R, K]` array. -/
def row {R K : ℕ} (H : (⟨2, ![R, K]⟩ : Shape).Idx → EReal) (r : Fin R) : Fin K → EReal := fun k => H (ix2 r k)

/-- A `[K, N]` array as a matrix. -/
def mat {K N : ℕ} (W : (⟨2, ![K, N]⟩ : Shape).Idx → EReal) : Fin K → Fin N → EReal := fun k n => W (ix2 k n)

/-- An `[N]` array as a vector. -/
def vec {N : ℕ} (b : (⟨1, ![N]⟩ : Shape).Idx → EReal) : Fin N → EReal := fun n => b (ix1 n)

/-- One dense layer applied to one row: `h · W + b`. -/
def affine {K N : ℕ} (h : Fin K → EReal) (W : Fin K → Fin N → EReal) (b : Fin N → EReal) : Fin N → EReal :=
  fun n => (∑ k : Fin K, h k * W k n) + b n

/-- The entrywise maximum of a row with a fixed threshold `z` (a rectifier when `z` is zero). -/
def floorAt {N : ℕ} (z : EReal) (v : Fin N → EReal) : Fin N → EReal := fun n => max (v n) z

/-! ## The plain contraction, re-indexed by the contracted coordinate -/

/-- The contraction sum of the plain dimension numbers at result index `(r, n)` runs over the contracted
    coordinate `k`: the left operand is read at `(r, k)`, the right at `(k, n)`. -/
theorem plain_contr_sum {M K N : ℕ} (f : (⟨2, ![M, K]⟩ : Shape).Idx → EReal) (g : (⟨2, ![K, N]⟩ : Shape).Idx → EReal)
    (r : Fin M) (n : Fin N) :
    ∑ q : (DotDims.plain M K N).contr.Idx,
        f ((DotDims.plain M K N).lhsIdx (ix2 r n) q) * g ((DotDims.plain M K N).rhsIdx (ix2 r n) q)
      = ∑ k : Fin K, f (ix2 r k) * g (ix2 k n) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r n) ((contrEquiv1 (DotDims.plain M K N) K rfl rfl).symm k) = ix2 r k :=
    funext fun a => Fin.ext (by
      match a with
      | ⟨0, _⟩ =>
        show ((DotDims.plain M K N).lhsIdx (ix2 r n) _ 0).val = r.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl (ix2 r n) _).trans hk)
  have er : (DotDims.plain M K N).rhsIdx (ix2 r n) ((contrEquiv1 (DotDims.plain M K N) K rfl rfl).symm k) = ix2 k n :=
    funext fun a => Fin.ext (by
      match a with
      | ⟨0, _⟩ => exact ((DotDims.plain M K N).rhsIdx_val_of_single rfl (ix2 r n) _).trans hk
      | ⟨1, _⟩ =>
        show ((DotDims.plain M K N).rhsIdx (ix2 r n) _ 1).val = n.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-! ## The bias, broadcast over the rows -/

/-- An `[N]` array cast to `[1, N]` and broadcast to `[R, N]` reads, at `(r, n)`, the array at `n`. -/
theorem castBroadcast_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- An `[N]` array broadcast in dimension to `[1, N]` (its axis the second) and then to `[R, N]` reads, at
    `(r, n)`, the array at `n`. -/
theorem broadcastTwice_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (n : Fin N) :
    broadcastInDim ⟨2, ![R, N]⟩ ![0, 1] h2 (broadcastInDim ⟨2, ![1, N]⟩ ![1] h1 b) (ix2 r n) = b (ix1 n) := by
  have hN : n.val = if N = 1 then 0 else n.val := by
    split
    · have := n.isLt; omega
    · rfl
  rw [broadcastInDim_apply ![0, 1] h2 _ (ix2 r n) (ix2 (0 : Fin 1) n) (fun a => by
      match a with
      | ⟨0, _⟩ => rfl
      | ⟨1, _⟩ => exact hN),
    broadcastInDim_apply ![1] h1 b (ix2 (0 : Fin 1) n) (ix1 n) (fun a => by
      match a with
      | ⟨0, _⟩ => exact hN)]

/-- A rank-zero array broadcast in dimension to any shape reads its one entry everywhere. -/
theorem splat_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-! ## A layer's row, in its two spellings -/

/-- Row `r` of a matrix product accumulated into the zero splat, plus the cast-and-broadcast bias. -/
theorem row_matmul_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (r : Fin R) :
    row (addf (matmul d prec a w (constant (F := Ideal) ⟨2, ![R, N]⟩ .f32 0x00000000#32))
          (broadcastTo ⟨2, ![R, N]⟩ (shapeCast ⟨2, ![1, N]⟩ b hc) hb)) r
      = affine (row a r) (mat w) (vec b) := by
  subst hd
  funext n
  show FloatOps.matmul (DotDims.plain R K N) prec a w (constant (F := Ideal) ⟨2, ![R, N]⟩ .f32 0x00000000#32) (ix2 r n)
      + broadcastTo ⟨2, ![R, N]⟩ (shapeCast ⟨2, ![1, N]⟩ b hc) hb (ix2 r n) = _
  rw [Ideal.matmul_constant_zero_apply, plain_contr_sum, castBroadcast_apply]
  rfl

/-- Row `r` of a host `dot_general` plus the bias broadcast in dimension twice. -/
theorem row_dotGeneral_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (Host.dotGeneral d prec a w)
          (broadcastInDim ⟨2, ![R, N]⟩ ![0, 1] h2 (broadcastInDim ⟨2, ![1, N]⟩ ![1] h1 b))) r
      = affine (row a r) (mat w) (vec b) := by
  subst hd
  funext n
  show FloatOps.dotGeneral (DotDims.plain R K N) prec .single a w (ix2 r n)
      + broadcastInDim ⟨2, ![R, N]⟩ ![0, 1] h2 (broadcastInDim ⟨2, ![1, N]⟩ ![1] h1 b) (ix2 r n) = _
  rw [Ideal.dotGeneral_apply, plain_contr_sum, broadcastTwice_apply]
  rfl

/-- Row `r` of the entrywise maximum with a splat scalar. -/
theorem row_max_splat {R N : ℕ} (v : FVec Ideal ⟨2, ![R, N]⟩ .f32) (z : Ideal .f32) (r : Fin R) :
    row (maximumf v (broadcast ⟨2, ![R, N]⟩ z)) r = floorAt z (row v r) := rfl

/-- Row `r` of the entrywise maximum with a rank-zero constant broadcast in dimension. -/
theorem row_max_splatInDim {R N : ℕ} (v : FVec Ideal ⟨2, ![R, N]⟩ .f32)
    (dims : Fin (⟨0, ![]⟩ : Shape).rank → Fin (⟨2, ![R, N]⟩ : Shape).rank)
    (h : (⟨0, ![]⟩ : Shape).BroadcastsInDim ⟨2, ![R, N]⟩ dims) (wd : BitVec FTy.f32.bits) (r : Fin R) :
    row (maximumf v (broadcastInDim ⟨2, ![R, N]⟩ dims h (constant (F := Ideal) ⟨0, ![]⟩ .f32 wd))) r
      = floorAt (Ideal.ofBits .f32 wd) (row v r) := by
  funext n
  show max (v (ix2 r n)) (broadcastInDim ⟨2, ![R, N]⟩ dims h (constant (F := Ideal) ⟨0, ![]⟩ .f32 wd) (ix2 r n)) = _
  rw [splat_apply]
  rfl

/-- A change of float format leaves every row as it was: on the extended reals it is the identity. -/
theorem row_truncf {R N : ℕ} {φ ψ : FTy} (v : FVec Ideal ⟨2, ![R, N]⟩ φ) (h : ψ.bits < φ.bits) (r : Fin R) :
    row (truncf ψ v h : FVec Ideal ⟨2, ![R, N]⟩ ψ) r = row v r := rfl

/-- A shape cast to the same shape leaves a matrix as it was. -/
theorem mat_shapeCast_self {K N : ℕ} (w : (⟨2, ![K, N]⟩ : Shape).Idx → EReal)
    (h : (⟨2, ![K, N]⟩ : Shape).ShapeCasts ⟨2, ![K, N]⟩) :
    mat (shapeCast ⟨2, ![K, N]⟩ w h) = mat w := by
  rw [shapeCast_self]

/-- A shape cast to the same shape leaves every row as it was. -/
theorem row_shapeCast_self {R N : ℕ} (v : (⟨2, ![R, N]⟩ : Shape).Idx → EReal)
    (h : (⟨2, ![R, N]⟩ : Shape).ShapeCasts ⟨2, ![R, N]⟩) (r : Fin R) :
    row (shapeCast ⟨2, ![R, N]⟩ v h) r = row v r := by
  rw [shapeCast_self]

end Cert.DenseRows

end
-- ==== Proof.LibBlockRows.lean ====
/-
  Rows of a kernel block, on the extended reals.

  A kernel body that works on a block of R rows often (a) scales a sum of two [R, K] blocks by a per-row factor held
  as a column [R, 1] and spread over the lanes, and (b) multiplies an [R, K] block by a [K, N] matrix, accumulating
  into zeros, and adds a bias held as a one-row matrix [1, N] spread over the rows (the bias was reshaped to one row
  on the host, and the body loads that row). In both, row r of the result depends on row r of the row operands alone:
      (a)  k ↦ (a r k + f r k) · s r            (b)  n ↦ (∑ k, a r k · w k n) + b 0 n.
  The lemmas below read those rows, at any extents, for the plain dimension numbers (contract the left operand's
  last axis with the right operand's first, no batch axis). They use `row`, `mat`, `affine` and
  `plain_contr_sum` of LibDenseRows.lean.
-/
import Idealize.ShloMosaic.Lib.ValueLayout
import Idealize.ShloMosaic.Lib.ValueIdx
import Idealize.ShloMosaic.Lib.Pipeline.Value
import Idealize.ShloMosaic.PureOps.Ideal.Laws
import proofs.«113820_j12567074308662_1_alg».proof.Proof.LibDenseRows

noncomputable section

namespace Cert.LibBlockRows

open Idealize.ShloMosaic Idealize.ShloMosaic.ValueIdx Cert.DenseRows

/-- A column [R, 1] spread over K lanes reads, at (r, k), the column at r. -/
theorem column_spread {α : Type} {R K : ℕ} (s : (⟨2, ![R, 1]⟩ : Shape).Idx → α)
    (hb : (⟨2, ![R, 1]⟩ : Shape).Broadcasts ⟨2, ![R, K]⟩) (r : Fin R) (k : Fin K) :
    broadcastTo ⟨2, ![R, K]⟩ s hb (ix2 r k) = s (ix2 r (0 : Fin 1)) := by
  refine broadcastTo_apply s hb (ix2 r k) (ix2 r (0 : Fin 1)) fun ax => ?_
  match ax with
  | ⟨0, _⟩ =>
    show r.val = if R = 1 then 0 else r.val
    split
    · have := r.isLt; omega
    · rfl
  | ⟨1, _⟩ => rfl

/-- A one-row matrix [1, N] spread over R rows reads, at (r, n), the row at n. -/
theorem row_spread {α : Type} {R N : ℕ} (b : (⟨2, ![1, N]⟩ : Shape).Idx → α)
    (hb : (⟨2, ![1, N]⟩ : Shape).Broadcasts ⟨2, ![R, N]⟩) (r : Fin R) (n : Fin N) :
    broadcastTo ⟨2, ![R, N]⟩ b hb (ix2 r n) = b (ix2 (0 : Fin 1) n) := by
  refine broadcastTo_apply b hb (ix2 r n) (ix2 (0 : Fin 1) n) fun ax => ?_
  match ax with
  | ⟨0, _⟩ => rfl
  | ⟨1, _⟩ =>
    show n.val = if N = 1 then 0 else n.val
    split
    · have := n.isLt; omega
    · rfl

/-- Row `r` of `(a + f) · s`, the column `s` spread over the lanes: every entry of the summed row times the one
    factor `s r`. -/
theorem row_scaled_sum {R K : ℕ} (a f : FVec Ideal ⟨2, ![R, K]⟩ .f32) (s : FVec Ideal ⟨2, ![R, 1]⟩ .f32)
    (hb : (⟨2, ![R, 1]⟩ : Shape).Broadcasts ⟨2, ![R, K]⟩) (r : Fin R) :
    row (mulf (addf a f) (broadcastTo ⟨2, ![R, K]⟩ s hb)) r
      = fun k => (row a r k + row f r k) * s (ix2 r (0 : Fin 1)) := by
  funext k
  show (a (ix2 r k) + f (ix2 r k)) * broadcastTo ⟨2, ![R, K]⟩ s hb (ix2 r k) = _
  rw [column_spread]
  rfl

/-- Row `r` of a matrix product accumulated into the zero splat, plus a one-row bias spread over the rows, is the
    dense layer `h ↦ h · w + b` of row `r` of the left operand. -/
theorem row_matmul_rowbias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨2, ![1, N]⟩ .f32)
    (hb : (⟨2, ![1, N]⟩ : Shape).Broadcasts ⟨2, ![R, N]⟩) (r : Fin R) :
    row (addf (matmul d prec a w (constant (F := Ideal) ⟨2, ![R, N]⟩ .f32 0x00000000#32))
          (broadcastTo ⟨2, ![R, N]⟩ b hb)) r
      = affine (row a r) (mat w) (row b (0 : Fin 1)) := by
  subst hd
  funext n
  show FloatOps.matmul (DotDims.plain R K N) prec a w (constant (F := Ideal) ⟨2, ![R, N]⟩ .f32 0x00000000#32) (ix2 r n)
      + broadcastTo ⟨2, ![R, N]⟩ b hb (ix2 r n) = _
  rw [Ideal.matmul_constant_zero_apply, plain_contr_sum, row_spread]
  rfl

end Cert.LibBlockRows

end
-- ==== Proof.LibLayerSum.lean ====
/-
  The sum of two dense layers, read one row at a time on the extended reals.

  For `[R, K]` arrays `a` and `x`, `[K, N]` matrices `u` and `w` and a bias `b` of `N` entries, the array
  `(a · u + b) + x · w` has as its row `r`
      n ↦ ((∑ k, a r k * u k n) + b n) + ∑ k, x r k * w k n,
  a function of row `r` of `a` and row `r` of `x` alone (`layerSum`). The lemmas here read that row off the two
  spellings a program gives the array — two matrix products accumulated into zero splats with the bias held as a
  one-row matrix `[1, N]` spread over the rows, and two host `dot_general`s with the bias `[N]` broadcast in
  dimension twice — for the plain dimension numbers (contract the left operand's last axis with the right
  operand's first, no batch axis), at any extents and any float formats of the operands. Since both spellings give
  the same function of the row, the array computed block of rows by block of rows and the array computed whole
  agree row by row; `wholeOf` is that array as one function of its index. No finiteness is used: only the
  grouping `(· + b) + ·`, which the two spellings share.
  Built on `row`, `mat`, `vec`, `affine`, `plain_contr_sum` of LibDenseRows.lean and `row_matmul_rowbias` of
  LibBlockRows.lean.
-/
import Idealize.ShloMosaic.Lib.ValueLayout
import Idealize.ShloMosaic.Lib.ValueIdx
import Idealize.ShloMosaic.PureOps.Ideal.Laws
import proofs.«113820_j12567074308662_1_alg».proof.Proof.LibDenseRows
import proofs.«113820_j12567074308662_1_alg».proof.Proof.LibBlockRows

noncomputable section

namespace Cert.LibLayerSum

open Idealize.ShloMosaic Idealize.ShloMosaic.ValueIdx Cert.DenseRows Cert.LibBlockRows

/-- One row times a matrix: `h · W`. -/
def linear {K N : ℕ} (h : Fin K → EReal) (W : Fin K → Fin N → EReal) : Fin N → EReal :=
  fun n => ∑ k : Fin K, h k * W k n

/-- A biased dense layer of the row `h` plus an unbiased one of the row `g`: `(h · U + b) + g · W`. -/
def layerSum {K N : ℕ} (h g : Fin K → EReal) (U W : Fin K → Fin N → EReal) (b : Fin N → EReal) : Fin N → EReal :=
  fun n => affine h U b n + linear g W n

/-- The array whose row `r` is `layerSum` of row `r` of `A` and row `r` of `X`. -/
def wholeOf {R K N : ℕ} (A X : (⟨2, ![R, K]⟩ : Shape).Idx → EReal) (U W : (⟨2, ![K, N]⟩ : Shape).Idx → EReal)
    (b : Fin N → EReal) : (⟨2, ![R, N]⟩ : Shape).Idx → EReal :=
  fun i => layerSum (row A (i 0)) (row X (i 0)) (mat U) (mat W) b (i 1)

theorem wholeOf_ix2 {R K N : ℕ} (A X : (⟨2, ![R, K]⟩ : Shape).Idx → EReal) (U W : (⟨2, ![K, N]⟩ : Shape).Idx → EReal)
    (b : Fin N → EReal) (r : Fin R) (n : Fin N) :
    wholeOf A X U W b (ix2 r n) = layerSum (row A r) (row X r) (mat U) (mat W) b n := rfl

/-- Row `r` of a matrix product accumulated into the zero splat. -/
theorem row_matmul {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (r : Fin R) :
    row (matmul d prec a w (constant (F := Ideal) ⟨2, ![R, N]⟩ .f32 0x00000000#32)) r = linear (row a r) (mat w) := by
  subst hd
  funext n
  show FloatOps.matmul (DotDims.plain R K N) prec a w (constant (F := Ideal) ⟨2, ![R, N]⟩ .f32 0x00000000#32) (ix2 r n) = _
  rw [Ideal.matmul_constant_zero_apply, plain_contr_sum]
  rfl

/-- Row `r` of a host `dot_general`. -/
theorem row_dotGeneral {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (r : Fin R) :
    row (Host.dotGeneral d prec a w : FVec Ideal ⟨2, ![R, N]⟩ .f32) r = linear (row a r) (mat w) := by
  subst hd
  funext n
  show FloatOps.dotGeneral (DotDims.plain R K N) prec .single a w (ix2 r n) = _
  rw [Ideal.dotGeneral_apply, plain_contr_sum]
  rfl

/-- THE BLOCK'S SPELLING: row `r` of `(a ·ₘ u + spread b) + x ·ₘ w`, the products accumulated into zero splats, the
    bias a one-row matrix spread over the rows. -/
theorem row_block {R K N : ℕ} {φ₁ φ₂ φ₃ φ₄ : FTy} (d : DotDims ⟨2, ![R, K]⟩ ⟨2, ![K, N]⟩ ⟨2, ![R, N]⟩)
    (hd : d = DotDims.plain R K N) (prec prec' : Option ContractPrecision)
    (a : FVec Ideal ⟨2, ![R, K]⟩ φ₁) (u : FVec Ideal ⟨2, ![K, N]⟩ φ₂)
    (x : FVec Ideal ⟨2, ![R, K]⟩ φ₃) (w : FVec Ideal ⟨2, ![K, N]⟩ φ₄) (b : FVec Ideal ⟨2, ![1, N]⟩ .f32)
    (hb : (⟨2, ![1, N]⟩ : Shape).Broadcasts ⟨2, ![R, N]⟩) (r : Fin R) :
    row (addf (addf (matmul d prec a u (constant (F := Ideal) ⟨2, ![R, N]⟩ .f32 0x00000000#32))
            (broadcastTo ⟨2, ![R, N]⟩ b hb))
          (matmul d prec' x w (constant (F := Ideal) ⟨2, ![R, N]⟩ .f32 0x00000000#32))) r
      = layerSum (row a r) (row x r) (mat u) (mat w) (row b (0 : Fin 1)) := by
  funext n
  show row (addf (matmul d prec a u (constant (F := Ideal) ⟨2, ![R, N]⟩ .f32 0x00000000#32))
          (broadcastTo ⟨2, ![R, N]⟩ b hb)) r n
        + row (matmul d prec' x w (constant (F := Ideal) ⟨2, ![R, N]⟩ .f32 0x00000000#32)) r n = _
  rw [row_matmul_rowbias d hd, row_matmul d hd]
  rfl

/-- THE HOST'S SPELLING: row `r` of `(dot_general a u + b broadcast twice) + dot_general x w`. -/
theorem row_host {R K N : ℕ} {φ₁ φ₂ φ₃ φ₄ : FTy} (d : DotDims ⟨2, ![R, K]⟩ ⟨2, ![K, N]⟩ ⟨2, ![R, N]⟩)
    (hd : d = DotDims.plain R K N) (prec prec' : Option ContractPrecision)
    (a : FVec Ideal ⟨2, ![R, K]⟩ φ₁) (u : FVec Ideal ⟨2, ![K, N]⟩ φ₂)
    (x : FVec Ideal ⟨2, ![R, K]⟩ φ₃) (w : FVec Ideal ⟨2, ![K, N]⟩ φ₄) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (addf (Host.dotGeneral d prec a u)
            (broadcastInDim ⟨2, ![R, N]⟩ ![0, 1] h2 (broadcastInDim ⟨2, ![1, N]⟩ ![1] h1 b)))
          (Host.dotGeneral d prec' x w : FVec Ideal ⟨2, ![R, N]⟩ .f32)) r
      = layerSum (row a r) (row x r) (mat u) (mat w) (vec b) := by
  funext n
  show row (addf (Host.dotGeneral d prec a u)
          (broadcastInDim ⟨2, ![R, N]⟩ ![0, 1] h2 (broadcastInDim ⟨2, ![1, N]⟩ ![1] h1 b))) r n
        + row (Host.dotGeneral d prec' x w : FVec Ideal ⟨2, ![R, N]⟩ .f32) r n = _
  rw [row_dotGeneral_bias d hd, row_dotGeneral d hd]
  rfl

/-- So the host's array is `wholeOf` of its operands, index by index. -/
theorem host_whole {R K N : ℕ} {φ₁ φ₂ φ₃ φ₄ : FTy} (d : DotDims ⟨2, ![R, K]⟩ ⟨2, ![K, N]⟩ ⟨2, ![R, N]⟩)
    (hd : d = DotDims.plain R K N) (prec prec' : Option ContractPrecision)
    (a : FVec Ideal ⟨2, ![R, K]⟩ φ₁) (u : FVec Ideal ⟨2, ![K, N]⟩ φ₂)
    (x : FVec Ideal ⟨2, ![R, K]⟩ φ₃) (w : FVec Ideal ⟨2, ![K, N]⟩ φ₄) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) :
    addf (addf (Host.dotGeneral d prec a u)
            (broadcastInDim ⟨2, ![R, N]⟩ ![0, 1] h2 (broadcastInDim ⟨2, ![1, N]⟩ ![1] h1 b)))
          (Host.dotGeneral d prec' x w : FVec Ideal ⟨2, ![R, N]⟩ .f32)
      = wholeOf a x u w (vec b) := by
  funext i
  obtain ⟨r, n, rfl⟩ : ∃ (r : Fin R) (n : Fin N), i = ix2 r n := ⟨i 0, i 1, eq_ix2 i⟩
  exact congrFun (row_host d hd prec prec' a u x w b h1 h2 r) n

/-- An `[N]` array cast to one row `[1, N]` has the array as that row. -/
theorem row_cast_vec {N : ℕ} (b : (⟨1, ![N]⟩ : Shape).Idx → EReal) (hc : (⟨1, ![N]⟩ : Shape).ShapeCasts ⟨2, ![1, N]⟩) :
    row (shapeCast ⟨2, ![1, N]⟩ b hc) (0 : Fin 1) = vec b := by
  funext n
  show shapeCast ⟨2, ![1, N]⟩ b hc (ix2 (0 : Fin 1) n) = b (ix1 n)
  rw [shapeCast_a_1a_apply]

end Cert.LibLayerSum

end
-- ==== Proof.LibDenseSteps.lean ====
/-
  Two dense steps on rows, as whole-array functions on the extended reals, in three spellings.

  An array of node rows often goes through
      first   h = x · W                         (row r, column n:  ∑ k, x r k * W k n),
      second  z = max (a + b, 0) · W            (row r, column n:  ∑ k, max (a r k + b k) 0 * W k n),
  with `b` one entry per column of `a`. Both are ROW-LOCAL: row r of the result depends on row r of the row operand
  alone. They are stated here (`dense1`, `dense2`) for any number R of rows and any extents K, N, so the same
  definition reads a block of rows and the whole array, and a block of rows of the whole result is the result of
  that block of rows (`dense1_rows`, `dense2_rows`).
  The lemmas read each step off the spellings a program gives it, for the plain dimension numbers (contract the
  left operand's last axis with the right operand's first, no batch axis):
    * on a block, a matrix product accumulated into the zero splat on operands rounded to a narrower float format
      (the identity on the extended reals), the bias held as a one-row matrix `[1, K]` spread over the rows and the
      rectifier a maximum with a splat scalar, with same-shape casts in between (`block_dense1`, `block_dense2`);
    * on the host, a `dot_general`, the bias `[K]` broadcast in dimension twice (`[K] → [1, K] → [R, K]`) and the
      rectifier a maximum with a rank-zero constant broadcast to `[R, K]` (`dotGeneral_eq_dense1`, `host_layer2_eq`).
  No finiteness is used: the spellings group their sums and products alike.
  Built on `row`, `mat`, `vec`, `floorAt`, `row_max_splatInDim`, `broadcastTwice_apply` of LibDenseRows.lean,
  `row_spread` of LibBlockRows.lean and `linear`, `row_matmul`, `row_dotGeneral` of LibLayerSum.lean.
-/
import Idealize.ShloMosaic.Lib.ValueLayout
import Idealize.ShloMosaic.Lib.ValueIdx
import Idealize.ShloMosaic.Lib.Pipeline.Value
import Idealize.ShloMosaic.PureOps.Ideal.Laws
import proofs.«113820_j12567074308662_1_alg».proof.Proof.LibDenseRows
import proofs.«113820_j12567074308662_1_alg».proof.Proof.LibBlockRows
import proofs.«113820_j12567074308662_1_alg».proof.Proof.LibLayerSum

noncomputable section

namespace Cert.LibDenseSteps

open Idealize.ShloMosaic Idealize.ShloMosaic.ValueIdx Cert.DenseRows Cert.LibBlockRows Cert.LibLayerSum

/-! ## The two steps -/

/-- The f32 word of zero, as an extended real. -/
abbrev zeroE : EReal := Ideal.ofBits .f32 0x00000000#32

/-- The first dense step on R rows: `x · W`. -/
def dense1 {R K N : ℕ} (x : (⟨2, ![R, K]⟩ : Shape).Idx → EReal) (w : (⟨2, ![K, N]⟩ : Shape).Idx → EReal) :
    (⟨2, ![R, N]⟩ : Shape).Idx → EReal :=
  fun i => linear (row x (i 0)) (mat w) (i 1)

/-- One row of the second step's left operand: the row plus the bias, rectified. -/
def relued {K : ℕ} (h b : Fin K → EReal) : Fin K → EReal := floorAt zeroE (fun k => h k + b k)

/-- The second dense step on R rows: `max (a + b, 0) · W`, the bias `b` one entry per column of `a`. -/
def dense2 {R K N : ℕ} (a : (⟨2, ![R, K]⟩ : Shape).Idx → EReal) (b : Fin K → EReal)
    (w : (⟨2, ![K, N]⟩ : Shape).Idx → EReal) : (⟨2, ![R, N]⟩ : Shape).Idx → EReal :=
  fun i => linear (relued (row a (i 0)) b) (mat w) (i 1)

theorem dense1_ix2 {R K N : ℕ} (x : (⟨2, ![R, K]⟩ : Shape).Idx → EReal) (w : (⟨2, ![K, N]⟩ : Shape).Idx → EReal)
    (r : Fin R) (n : Fin N) : dense1 x w (ix2 r n) = linear (row x r) (mat w) n := rfl

theorem dense2_ix2 {R K N : ℕ} (a : (⟨2, ![R, K]⟩ : Shape).Idx → EReal) (b : Fin K → EReal)
    (w : (⟨2, ![K, N]⟩ : Shape).Idx → EReal) (r : Fin R) (n : Fin N) :
    dense2 a b w (ix2 r n) = linear (relued (row a r) b) (mat w) n := rfl

/-- Rows of the whole are rows of the block: if row `p` of `xb` is row `r` of `x`, entry `(p, n)` of the
    first step on the block is entry `(r, n)` of the first step on the whole. -/
theorem dense1_rows {R R' K N : ℕ} (x : (⟨2, ![R, K]⟩ : Shape).Idx → EReal) (xb : (⟨2, ![R', K]⟩ : Shape).Idx → EReal)
    (w : (⟨2, ![K, N]⟩ : Shape).Idx → EReal) (r : Fin R) (p : Fin R') (h : row xb p = row x r) (n : Fin N) :
    dense1 xb w (ix2 p n) = dense1 x w (ix2 r n) := by
  rw [dense1_ix2, dense1_ix2, h]

/-- The same for the second step. -/
theorem dense2_rows {R R' K N : ℕ} (a : (⟨2, ![R, K]⟩ : Shape).Idx → EReal) (ab : (⟨2, ![R', K]⟩ : Shape).Idx → EReal)
    (b : Fin K → EReal) (w : (⟨2, ![K, N]⟩ : Shape).Idx → EReal) (r : Fin R) (p : Fin R') (h : row ab p = row a r)
    (n : Fin N) : dense2 ab b w (ix2 p n) = dense2 a b w (ix2 r n) := by
  rw [dense2_ix2, dense2_ix2, h]

/-! ## A block's spelling: rounded operands, a product accumulated into zeros -/

/-- The first step on a block: both operands rounded to narrower formats, the product accumulated into the zero
    splat. Rounding is the identity on the extended reals, so each row of the product is the row times the matrix. -/
theorem block_dense1 {R K N : ℕ} {ψ₁ ψ₂ : FTy} (d : DotDims ⟨2, ![R, K]⟩ ⟨2, ![K, N]⟩ ⟨2, ![R, N]⟩)
    (hd : d = DotDims.plain R K N) (prec : Option ContractPrecision)
    (x : FVec Ideal ⟨2, ![R, K]⟩ .f32) (w : FVec Ideal ⟨2, ![K, N]⟩ .f32)
    (h₁ : ψ₁.bits < FTy.f32.bits) (h₂ : ψ₂.bits < FTy.f32.bits) :
    matmul d prec (truncf ψ₁ x h₁) (truncf ψ₂ w h₂) (constant (F := Ideal) ⟨2, ![R, N]⟩ .f32 0x00000000#32)
      = dense1 x w := by
  funext i
  obtain ⟨r, n, rfl⟩ : ∃ (r : Fin R) (n : Fin N), i = ix2 r n := ⟨i 0, i 1, eq_ix2 i⟩
  rw [dense1_ix2]
  exact congrFun (row_matmul d hd prec _ _ r) n

/-- The second step on a block: the row operand and the one-row bias through same-shape casts, the bias spread
    over the rows and added, the maximum with the zero splat, both operands of the product rounded to narrower
    formats, the product accumulated into the zero splat. In row `r` the spread bias reads the bias row itself, so
    the left operand's row is the rectified biased row. -/
theorem block_dense2 {R K N : ℕ} {ψ₁ ψ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ .f32) (b : FVec Ideal ⟨2, ![1, K]⟩ .f32) (w : FVec Ideal ⟨2, ![K, N]⟩ .f32)
    (ha : (⟨2, ![R, K]⟩ : Shape).ShapeCasts ⟨2, ![R, K]⟩) (hb : (⟨2, ![1, K]⟩ : Shape).ShapeCasts ⟨2, ![1, K]⟩)
    (hs : (⟨2, ![1, K]⟩ : Shape).Broadcasts ⟨2, ![R, K]⟩)
    (h₁ : ψ₁.bits < FTy.f32.bits) (h₂ : ψ₂.bits < FTy.f32.bits) :
    matmul d prec
        (truncf ψ₁ (maximumf (addf (shapeCast ⟨2, ![R, K]⟩ a ha)
            (broadcastTo ⟨2, ![R, K]⟩ (shapeCast ⟨2, ![1, K]⟩ b hb) hs))
          (broadcast ⟨2, ![R, K]⟩ (Scalar.ofBits (F := Ideal) .f32 0x00000000#32))) h₁)
        (truncf ψ₂ w h₂) (constant (F := Ideal) ⟨2, ![R, N]⟩ .f32 0x00000000#32)
      = dense2 a (row b (0 : Fin 1)) w := by
  funext i
  obtain ⟨r, n, rfl⟩ : ∃ (r : Fin R) (n : Fin N), i = ix2 r n := ⟨i 0, i 1, eq_ix2 i⟩
  rw [dense2_ix2]
  refine (congrFun (row_matmul d hd prec _ _ r) n).trans ?_
  refine congrArg (fun h => linear h (mat w) n) ?_
  funext k
  show max (shapeCast ⟨2, ![R, K]⟩ a ha (ix2 r k)
      + broadcastTo ⟨2, ![R, K]⟩ (shapeCast ⟨2, ![1, K]⟩ b hb) hs (ix2 r k)) _ = _
  rw [shapeCast_self, row_spread, shapeCast_self]
  rfl

/-! ## The host's spelling: `dot_general`, the bias broadcast in dimension twice -/

/-- A host `dot_general` with the plain dimension numbers is the first dense step. -/
theorem dotGeneral_eq_dense1 {R K N : ℕ} {φ₁ φ₂ : FTy} (d : DotDims ⟨2, ![R, K]⟩ ⟨2, ![K, N]⟩ ⟨2, ![R, N]⟩)
    (hd : d = DotDims.plain R K N) (prec : Option ContractPrecision)
    (x : FVec Ideal ⟨2, ![R, K]⟩ φ₁) (w : FVec Ideal ⟨2, ![K, N]⟩ φ₂) :
    (Host.dotGeneral d prec x w : FVec Ideal ⟨2, ![R, N]⟩ .f32) = dense1 x w := by
  funext i
  obtain ⟨r, n, rfl⟩ : ∃ (r : Fin R) (n : Fin N), i = ix2 r n := ⟨i 0, i 1, eq_ix2 i⟩
  exact congrFun (row_dotGeneral d hd prec x w r) n

/-- Row `r` of `max (a + b, 0)` in the host's spelling — the bias broadcast in dimension twice, the zero a
    broadcast rank-zero constant — is the rectified biased row. -/
theorem row_host_relu {R K : ℕ} (a : FVec Ideal ⟨2, ![R, K]⟩ .f32) (b : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![R, K]⟩ ![0, 1])
    (dims0 : Fin (⟨0, ![]⟩ : Shape).rank → Fin (⟨2, ![R, K]⟩ : Shape).rank)
    (h0 : (⟨0, ![]⟩ : Shape).BroadcastsInDim ⟨2, ![R, K]⟩ dims0) (r : Fin R) :
    row (maximumf (addf a (broadcastInDim ⟨2, ![R, K]⟩ ![0, 1] h2 (broadcastInDim ⟨2, ![1, K]⟩ ![1] h1 b)))
          (broadcastInDim ⟨2, ![R, K]⟩ dims0 h0 (constant (F := Ideal) ⟨0, ![]⟩ .f32 0x00000000#32))) r
      = relued (row a r) (vec b) := by
  rw [row_max_splatInDim]
  unfold relued
  refine congrArg (floorAt zeroE) ?_
  funext k
  show a (ix2 r k) + broadcastInDim ⟨2, ![R, K]⟩ ![0, 1] h2 (broadcastInDim ⟨2, ![1, K]⟩ ![1] h1 b) (ix2 r k) = _
  rw [broadcastTwice_apply]
  rfl

/-- The host's second layer — `dot_general` of the rectified biased rows with `W` — is the second dense step. -/
theorem host_layer2_eq {R K N : ℕ} (d : DotDims ⟨2, ![R, K]⟩ ⟨2, ![K, N]⟩ ⟨2, ![R, N]⟩)
    (hd : d = DotDims.plain R K N) (prec : Option ContractPrecision)
    (a : FVec Ideal ⟨2, ![R, K]⟩ .f32) (b : FVec Ideal ⟨1, ![K]⟩ .f32) (w : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![R, K]⟩ ![0, 1])
    (dims0 : Fin (⟨0, ![]⟩ : Shape).rank → Fin (⟨2, ![R, K]⟩ : Shape).rank)
    (h0 : (⟨0, ![]⟩ : Shape).BroadcastsInDim ⟨2, ![R, K]⟩ dims0) :
    (Host.dotGeneral d prec
        (maximumf (addf a (broadcastInDim ⟨2, ![R, K]⟩ ![0, 1] h2 (broadcastInDim ⟨2, ![1, K]⟩ ![1] h1 b)))
          (broadcastInDim ⟨2, ![R, K]⟩ dims0 h0 (constant (F := Ideal) ⟨0, ![]⟩ .f32 0x00000000#32))) w
      : FVec Ideal ⟨2, ![R, N]⟩ .f32) = dense2 a (vec b) w := by
  funext i
  obtain ⟨r, n, rfl⟩ : ∃ (r : Fin R) (n : Fin N), i = ix2 r n := ⟨i 0, i 1, eq_ix2 i⟩
  rw [dense2_ix2, ← row_host_relu a b h1 h2 dims0 h0 r]
  exact congrFun (row_dotGeneral d hd prec _ w r) n

end Cert.LibDenseSteps

end
-- ==== Proof.KernelValue.lean ====
/-
  The idealized kernel program's result, as one term of the argument arrays.

  The run leaves the result buffer at the contents the fold through the program's five segments gives it. Walking
  that fold back from the result buffer: the last host stretch makes it `tail` of the second region's output, the
  two edge columns and the second bias; the second region's output array is the second dense step `dense2` of its
  three operands as the region finds them (the first aggregation, the first bias as one row, the second weight
  matrix); the middle host stretch makes the first aggregation `mid` of the first region's output, the edge columns
  and the edge weights, and the one-row bias a reshape of the bias vector; the first region's output array is the
  first dense step `dense1` of the node features and the first weight matrix; and the first host stretch cuts the
  edge columns out of the edge list. Buffers a segment does not write keep their contents through it.
  The two facts about the regions (each output array after its write-backs is the dense step of the region's entry
  contents, for ANY entry contents) are taken as hypotheses here and supplied where the claims are assembled.
-/
import proofs.«113820_j12567074308662_1_alg».proof.Proof.Gen.KernelIdeal.Frame
import proofs.«113820_j12567074308662_1_alg».proof.Proof.KernelChain
import proofs.«113820_j12567074308662_1_alg».proof.Proof.LibDenseSteps

set_option maxRecDepth 16384

noncomputable section

namespace Cert.KernelIdeal.Value

open Cert.KernelIdeal Cert.KernelIdeal.Gen Cert.KernelIdeal.Chain
open Idealize.ShloMosaic Idealize.ShloMosaic.TcCoe Idealize.SL.Sem Idealize.ShloMosaic.StableHlo
open Cert.DenseRows Cert.LibLayerSum Cert.LibDenseSteps

/-- What the first region leaves in its output array, whatever the buffers hold when it is entered. -/
def Region0Fact : Prop :=
  ∀ (V : (c : Dev nD) → (b : Ref sig .tc) → Buf (Elt Ideal) ((c : Thread nD τ).loc b)) (c : Dev nD),
    (dat0 (F := Ideal) V c).arrAt 2 cfg0.N = dense1 (V c main_arg0) (V c main_arg3)

/-- What the second region leaves in its output array, whatever the buffers hold when it is entered. -/
def Region1Fact : Prop :=
  ∀ (V : (c : Dev nD) → (b : Ref sig .tc) → Buf (Elt Ideal) ((c : Thread nD τ).loc b)) (c : Dev nD),
    (dat1 (F := Ideal) V c).arrAt 3 cfg1.N = dense2 (V c main_v17) (row (V c main_v18) (0 : Fin 1)) (V c main_arg5)

variable (m : (ℓ : Loc nD τ sig) → Buf (Elt Ideal) ℓ) (ρ : Dev nD → PrngReg) (c : Dev nD)

/-! ## After the first host stretch -/

theorem w1_v1 : W1 m ρ c (Proc.devRef .tc main_v1) = srcVec (m ((c : Thread nD τ).loc main_arg1)) := ops0_v1 (W0 m ρ c)
theorem w1_v3 : W1 m ρ c (Proc.devRef .tc main_v3) = dstVec (m ((c : Thread nD τ).loc main_arg1)) := ops0_v3 (W0 m ρ c)
theorem w1_arg0 : W1 m ρ c (Proc.devRef .tc main_arg0) = m ((c : Thread nD τ).loc main_arg0) := ops0_arg0 (W0 m ρ c)
theorem w1_arg2 : W1 m ρ c (Proc.devRef .tc main_arg2) = m ((c : Thread nD τ).loc main_arg2) := ops0_arg2 (W0 m ρ c)
theorem w1_arg3 : W1 m ρ c (Proc.devRef .tc main_arg3) = m ((c : Thread nD τ).loc main_arg3) := ops0_arg3 (W0 m ρ c)
theorem w1_arg4 : W1 m ρ c (Proc.devRef .tc main_arg4) = m ((c : Thread nD τ).loc main_arg4) := ops0_arg4 (W0 m ρ c)
theorem w1_arg5 : W1 m ρ c (Proc.devRef .tc main_arg5) = m ((c : Thread nD τ).loc main_arg5) := ops0_arg5 (W0 m ρ c)
theorem w1_arg6 : W1 m ρ c (Proc.devRef .tc main_arg6) = m ((c : Thread nD τ).loc main_arg6) := ops0_arg6 (W0 m ρ c)

/-! ## After the first region: its output is the first dense step; nothing else moved -/

theorem w2_v4 (h0 : Region0Fact) : W2 m ρ c (Proc.devRef .tc main_v4)
    = dense1 (m ((c : Thread nD τ).loc main_arg0)) (m ((c : Thread nD τ).loc main_arg3)) :=
  (W2_arr m ρ c 2).trans ((h0 (V1 m ρ) c).trans (congrArg₂ dense1 (w1_arg0 m ρ c) (w1_arg3 m ρ c)))
theorem w2_v1 : W2 m ρ c (Proc.devRef .tc main_v1) = srcVec (m ((c : Thread nD τ).loc main_arg1)) :=
  (W2_of_ne m ρ c main_v1 (by decide)).trans (w1_v1 m ρ c)
theorem w2_v3 : W2 m ρ c (Proc.devRef .tc main_v3) = dstVec (m ((c : Thread nD τ).loc main_arg1)) :=
  (W2_of_ne m ρ c main_v3 (by decide)).trans (w1_v3 m ρ c)
theorem w2_arg2 : W2 m ρ c (Proc.devRef .tc main_arg2) = m ((c : Thread nD τ).loc main_arg2) :=
  (W2_of_ne m ρ c main_arg2 (by decide)).trans (w1_arg2 m ρ c)
theorem w2_arg4 : W2 m ρ c (Proc.devRef .tc main_arg4) = m ((c : Thread nD τ).loc main_arg4) :=
  (W2_of_ne m ρ c main_arg4 (by decide)).trans (w1_arg4 m ρ c)
theorem w2_arg5 : W2 m ρ c (Proc.devRef .tc main_arg5) = m ((c : Thread nD τ).loc main_arg5) :=
  (W2_of_ne m ρ c main_arg5 (by decide)).trans (w1_arg5 m ρ c)
theorem w2_arg6 : W2 m ρ c (Proc.devRef .tc main_arg6) = m ((c : Thread nD τ).loc main_arg6) :=
  (W2_of_ne m ρ c main_arg6 (by decide)).trans (w1_arg6 m ρ c)

/-! ## After the middle host stretch: the first aggregation, and the bias as one row -/

/-- The first aggregation, of the argument arrays. -/
def agg1 : (⟨S50000x128, .f32⟩ : BufTy).Contents (Elt Ideal) :=
  mid (dense1 (m ((c : Thread nD τ).loc main_arg0)) (m ((c : Thread nD τ).loc main_arg3)))
    (srcVec (m ((c : Thread nD τ).loc main_arg1))) (dstVec (m ((c : Thread nD τ).loc main_arg1)))
    (m ((c : Thread nD τ).loc main_arg2))

theorem w3_v17 (h0 : Region0Fact) : W3 m ρ c (Proc.devRef .tc main_v17) = agg1 m c :=
  (ops1_v17 (W2 m ρ c)).trans (by rw [w2_v4 m ρ c h0, w2_v1, w2_v3, w2_arg2]; rfl)
theorem w3_v18 : W3 m ρ c (Proc.devRef .tc main_v18)
    = (shapeCast S1x128 (m ((c : Thread nD τ).loc main_arg4)) shapeCasts_S128_S1x128 : (⟨S1x128, .f32⟩ : BufTy).Contents (Elt Ideal)) :=
  (ops1_v18 (W2 m ρ c)).trans (by rw [w2_arg4])
theorem w3_arg5 : W3 m ρ c (Proc.devRef .tc main_arg5) = m ((c : Thread nD τ).loc main_arg5) :=
  (ops1_arg5 (W2 m ρ c)).trans (w2_arg5 m ρ c)
theorem w3_arg6 : W3 m ρ c (Proc.devRef .tc main_arg6) = m ((c : Thread nD τ).loc main_arg6) :=
  (ops1_arg6 (W2 m ρ c)).trans (w2_arg6 m ρ c)
theorem w3_v1 : W3 m ρ c (Proc.devRef .tc main_v1) = srcVec (m ((c : Thread nD τ).loc main_arg1)) :=
  (ops1_v1 (W2 m ρ c)).trans (w2_v1 m ρ c)
theorem w3_v3 : W3 m ρ c (Proc.devRef .tc main_v3) = dstVec (m ((c : Thread nD τ).loc main_arg1)) :=
  (ops1_v3 (W2 m ρ c)).trans (w2_v3 m ρ c)

/-! ## After the second region: its output is the second dense step; nothing else moved -/

theorem w4_v19 (h0 : Region0Fact) (h1 : Region1Fact) : W4 m ρ c (Proc.devRef .tc main_v19)
    = dense2 (agg1 m c) (vec (m ((c : Thread nD τ).loc main_arg4))) (m ((c : Thread nD τ).loc main_arg5)) := by
  refine (W4_arr m ρ c 3).trans ((h1 (V3 m ρ) c).trans ?_)
  rw [show V3 m ρ c main_v17 = agg1 m c from w3_v17 m ρ c h0,
    show V3 m ρ c main_v18 = _ from w3_v18 m ρ c, show V3 m ρ c main_arg5 = _ from w3_arg5 m ρ c, row_cast_vec]
theorem w4_v1 : W4 m ρ c (Proc.devRef .tc main_v1) = srcVec (m ((c : Thread nD τ).loc main_arg1)) :=
  (W4_of_ne m ρ c main_v1 (by decide)).trans (w3_v1 m ρ c)
theorem w4_v3 : W4 m ρ c (Proc.devRef .tc main_v3) = dstVec (m ((c : Thread nD τ).loc main_arg1)) :=
  (W4_of_ne m ρ c main_v3 (by decide)).trans (w3_v3 m ρ c)
theorem w4_arg6 : W4 m ρ c (Proc.devRef .tc main_arg6) = m ((c : Thread nD τ).loc main_arg6) :=
  (W4_of_ne m ρ c main_arg6 (by decide)).trans (w3_arg6 m ρ c)

/-! ## After the last host stretch: the result -/

/-- The program's result, of the argument arrays: aggregate `x · W₁` with the edge weights, add the first bias,
    rectify, multiply by `W₂`, aggregate again, add the second bias. -/
def result : (⟨S50000x64, .f32⟩ : BufTy).Contents (Elt Ideal) :=
  tail (dense2 (agg1 m c) (vec (m ((c : Thread nD τ).loc main_arg4))) (m ((c : Thread nD τ).loc main_arg5)))
    (srcVec (m ((c : Thread nD τ).loc main_arg1))) (dstVec (m ((c : Thread nD τ).loc main_arg1)))
    (m ((c : Thread nD τ).loc main_arg6))

theorem w5_v32 (h0 : Region0Fact) (h1 : Region1Fact) : W5 m ρ c (Proc.devRef .tc main_v32) = result m c :=
  (ops2_v32 (W4 m ρ c)).trans (by rw [w4_v19 m ρ c h0 h1, w4_v1, w4_v3, w4_arg6]; rfl)

end Cert.KernelIdeal.Value

end
-- ==== Proof.RegionDense1.lean ====
/-
  The first dense step of the graph convolution, h = x · W₁, read off the blocked kernel as ONE function of its
  two arrays.

  The kernel walks the 50000 rows of x in ten blocks of 5000 rows. At grid point t it holds rows
  5000·t … 5000·t + 4999 of x (all 128 columns) and the whole 128 × 128 matrix W₁, multiplies the block by the matrix
  (both operands first rounded to a narrower float format, which on the extended reals changes nothing, the product
  accumulated into zeros), and writes the 5000 × 128 product to rows 5000·t … 5000·t + 4999 of the output.
  A matrix product is row-local: entry (r, n) of x · W₁ is ∑ k, x r k * W₁ k n, which reads row r of x and column n
  of W₁ and nothing else. So the product of a block of rows IS that block of rows of the whole product, and since the
  ten blocks tile the 50000 rows, the output array ends holding `Cert.LibDenseSteps.dense1 x W₁` at every index.

  The steps: (1) what the body computes on a block is `dense1` of the block (`pay_eq`); (2) how the three windows'
  block indices relate at every grid point (`idx_facts`, `idx_onto`); (3) the blocks as rows of the arrays
  (`wblk_eq`, `xrow_eq`) and hence what a point writes back as a block of `dense1` of the whole arrays
  (`flushed_eq`); (4) every output index lies in the block of the point r / 5000 (`cover`), so the array is
  `dense1` of the whole arrays (`final`).
-/
import proofs.«113820_j12567074308662_1_alg».proof.Proof.Gen.KernelIdeal.Frame
import proofs.«113820_j12567074308662_1_alg».proof.Proof.LibDenseSteps
import Idealize.ShloMosaic.Lib.Pipeline.Value
import Idealize.ShloMosaic.Lib.ValueIdx

set_option maxRecDepth 16384

noncomputable section

namespace Cert.KernelIdeal.RegionDense1

open Cert.KernelIdeal Cert.KernelIdeal.Gen Idealize.ShloMosaic Idealize.ShloMosaic.TcCoe Idealize.ShloMosaic.ValueIdx
open Idealize.SL.Sem Cert.DenseRows Cert.LibLayerSum Cert.LibBlockRows
open Idealize.ShloMosaic.Pipeline (Dat)

/-- The body loads and stores whole staging buffers: its rectangles start at the origin. -/
theorem hz : (![0, 0] : Fin 2 → Nat) = fun _ => 0 := funext fun a => by fin_cases a <;> rfl

/-! ## The body on one block -/

/-- What the body computes from a 5000 × 128 block `x0` of rows and the 128 × 128 matrix `x1` is the first dense
    step on those 5000 rows: entry (p, n) is ∑ k, x0 p k * x1 k n. The two roundings to the narrower format are the
    identity on the extended reals, and the product accumulated into the zero splat is the plain contraction of the
    left operand's columns with the right operand's rows. -/
theorem pay_eq (x0 : Vec Ideal S5000x128 .f32) (x1 : Vec Ideal S128x128 .f32) :
    Gen.k0_pay1 (F := Ideal) x0 x1 = Cert.LibDenseSteps.dense1 x0 x1 := by
  unfold Gen.k0_pay1
  exact Cert.LibDenseSteps.block_dense1 _ rfl none x0 x1 _ _

/-! ## The windows' block indices over the grid -/

/-- At every grid point: the block of x and the block of the output have the same row-block index and column-block
    index 0 (they move down the rows together, each 128 columns wide); the matrix's window stays at block (0, 0), the
    whole matrix; and the row-block index is one of 0 … 9. Decided over the ten points. -/
theorem idx_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) ≤ 9 :=
  (by decide +kernel : ∀ t : Fin grid0.N, _)

/-- Each of the ten row blocks of the output is some grid point's. -/
theorem idx_onto : ∀ q : Fin 10, ∃ t : Fin cfg0.N, win0_2.index t = ![q.val, 0] :=
  (by decide +kernel : ∀ q : Fin 10, ∃ t : Fin grid0.N, win0_2.index t = ![q.val, 0])

/-! ## The blocks as parts of the arrays, and what a point writes back -/

-- the arrays' contents when the region is entered
variable (V : (c : Dev nD) → (b : Ref sig .tc) → Buf (Elt Ideal) ((c : Thread nD τ).loc b))

/-- The matrix's block at every point is the whole matrix W₁: its block index is (0, 0) and the block has the
    matrix's extents, so block coordinate (k, n) is array coordinate (0 · 128 + k, 0 · 128 + n) = (k, n). -/
theorem wblk_eq (c : Dev nD) (t : Fin cfg0.N) : Gen.iblk0 (F := Ideal) V c 1 t = V c main_arg3 := by
  obtain ⟨e0, e1, e2, e3, e4, e5⟩ := idx_facts t
  funext j
  unfold Gen.iblk0
  rw [View.read_apply]
  show V c main_arg3 _ = V c main_arg3 j
  congr 1
  funext a
  apply Fin.ext
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- Row `p` of the block of x at point `t` is row `r` of x, for `r` = (the output's row-block index at `t`) · 5000 + `p`:
    the block of x has the output's row-block index and column-block index 0, so block coordinate (p, k) is array
    coordinate (index · 5000 + p, k). -/
theorem xrow_eq (c : Dev nD) (t : Fin cfg0.N) (p : Fin 5000) (r : Fin 50000)
    (hr : r.val = win0_2.index t (0 : Fin 2) * 5000 + p.val) :
    row (Gen.iblk0 (F := Ideal) V c 0 t) p = row (V c main_arg0) r := by
  obtain ⟨e0, e1, e2, e3, e4, e5⟩ := idx_facts t
  funext k
  show Gen.iblk0 (F := Ideal) V c 0 t (ix2 p k) = V c main_arg0 (ix2 r k)
  unfold Gen.iblk0
  rw [View.read_apply]
  show V c main_arg0 _ = V c main_arg0 (ix2 r k)
  congr 1
  funext a
  apply Fin.ext
  match a with
  | ⟨0, _⟩ => show win0_0.index t (0 : Fin 2) * 5000 + 1 * p.val = r.val; omega
  | ⟨1, _⟩ => show win0_0.index t (1 : Fin 2) * 128 + 1 * k.val = k.val; omega

/-- WHAT POINT `t` WRITES BACK is its block of `dense1 x W₁` of the WHOLE arrays: the body leaves `dense1` of the
    block of x and of W₁ (`pay_eq`, `wblk_eq`); entry (p, n) of that is entry (index · 5000 + p, n) of the whole
    product because it reads row p of the block, which is row index · 5000 + p of x (`xrow_eq`, `dense1_rows`); and
    (index · 5000 + p, n) is where the output's block places its coordinate (p, n). -/
theorem flushed_eq (c : Dev nD) (t : Fin cfg0.N) :
    (Gen.dat0 (F := Ideal) V c).flushed 2 t
      = ((cfg0.win 2).blk t).view.read (Elt Ideal) (Cert.LibDenseSteps.dense1 (V c main_arg0) (V c main_arg3)) := by
  show (cfg0.win 2).cut (grid0.coords t) ((Gen.dat0 V c).after 2 t) = _
  rw [Gen.after0_2]
  unfold Gen.out0_2
  rw [View.canon_unit_zero hz]
  simp only [View.ld_unit_zero (S := S5000x128) hz, View.ld_unit_zero (S := S128x128) hz]
  rw [pay_eq, wblk_eq]
  obtain ⟨e0, e1, e2, e3, e4, e5⟩ := idx_facts t
  refine funext fun (y : S5000x128.Idx) => ?_
  obtain ⟨p, n, rfl⟩ : ∃ (p : Fin 5000) (n : Fin 128), y = ix2 p n := ⟨y 0, y 1, eq_ix2 y⟩
  have hp : p.val < 5000 := p.isLt
  have hemb : ((cfg0.win 2).blk t).view.emb (ix2 p n)
      = ix2 (⟨win0_2.index t (0 : Fin 2) * 5000 + p.val, by omega⟩ : Fin 50000) n := by
    funext a
    apply Fin.ext
    match a with
    | ⟨0, _⟩ =>
      show win0_2.index t (0 : Fin 2) * 5000 + 1 * p.val = win0_2.index t (0 : Fin 2) * 5000 + p.val
      omega
    | ⟨1, _⟩ => show win0_2.index t (1 : Fin 2) * 128 + 1 * n.val = n.val; omega
  show Cert.LibDenseSteps.dense1 (Gen.iblk0 V c 0 t) (V c main_arg3) (ix2 p n)
      = Cert.LibDenseSteps.dense1 (V c main_arg0) (V c main_arg3) (((cfg0.win 2).blk t).view.emb (ix2 p n))
  rw [hemb]
  exact Cert.LibDenseSteps.dense1_rows _ _ _ _ p (xrow_eq V c t p _ rfl) n

/-! ## The blocks tile the output -/

/-- An index of the output is in point `t`'s block iff each coordinate lies in the block's range on its axis:
    rows index · 5000 … index · 5000 + 4999, columns index · 128 … index · 128 + 127. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v4).slice (win0_2.rect t)).set ↔ _
  rw [View.set_slice_whole, Rect.mem_set_unit]
  exact Iff.rfl

/-- Every index (r, n) of the output is in the block of a point that writes back: the point whose row-block index is
    r / 5000, since 5000 · (r / 5000) ≤ r < 5000 · (r / 5000) + 5000 and the one column block holds all 128 columns. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, Gen.flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-! ## The output array -/

/-- THE OUTPUT after the ten points: h = x · W₁ of the arrays as the region finds them, at every index. Each point
    writes its block of that product (`flushed_eq`) and the blocks cover the array (`cover`). -/
theorem final (c : Dev nD) :
    (Gen.dat0 (F := Ideal) V c).arrAt 2 cfg0.N = Cert.LibDenseSteps.dense1 (V c main_arg0) (V c main_arg3) :=
  (Gen.dat0 V c).arrAt_eq_of_cover 2 _ (fun t _ => flushed_eq V c t) cover

end Cert.KernelIdeal.RegionDense1

end
-- ==== Proof.RegionDense2.lean ====
/-
  The second dense step of the graph convolution, block by block.

  The region computes z = max (agg + b, 0) · W₂ on an array of 50000 node rows, 5000 rows at a time: at each of
  its ten points it reads rows 5000·q … 5000·q + 4999 of agg (q the point's row-block index), the whole one-row
  bias and the whole matrix W₂, and writes rows 5000·q … 5000·q + 4999 of z. Entry (r, n) of z is
  ∑ k, max (agg r k + b 0 k) 0 * W₂ k n: it depends on row r of agg alone, so the step on a block of rows is that
  block of rows of the step on the whole array. Here: the body's value on one block (`pay_eq`), where each
  window's block sits in its array (`idx_facts`, `bias_blk`, `mat_blk`), what one point writes back as a block of
  the whole result (`flushed_eq`), the ten blocks covering the result (`cover`), and the result array after the
  region (`final`).
-/
import proofs.«113820_j12567074308662_1_alg».proof.Proof.Gen.KernelIdeal.Frame
import proofs.«113820_j12567074308662_1_alg».proof.Proof.LibDenseSteps
import Idealize.ShloMosaic.Lib.Pipeline.Value
import Idealize.ShloMosaic.Lib.ValueIdx

set_option maxRecDepth 16384

noncomputable section

namespace Cert.KernelIdeal.RegionDense2

open Cert.KernelIdeal Cert.KernelIdeal.Gen Idealize.ShloMosaic Idealize.ShloMosaic.TcCoe Idealize.ShloMosaic.ValueIdx
open Idealize.SL.Sem Cert.DenseRows Cert.LibLayerSum Cert.LibBlockRows
open Idealize.ShloMosaic.Pipeline (Dat)

/-- The two zeros of a whole-block access, as the constant function. -/
theorem hz : (![0, 0] : Fin 2 → Nat) = fun _ => 0 := funext fun a => by fin_cases a <;> rfl

/-! ## The body's value on one block -/

/-- On a block of 5000 rows the body computes the second dense step of that block: entry (p, n) is
    ∑ k, max (a p k + b 0 k) 0 * w k n. The two roundings to the narrower format are the identity on the
    extended reals, the casts to the same shape change nothing, and the one-row bias spread over the rows
    reads, in row p, the bias row itself. -/
theorem pay_eq (x0 : Vec Ideal S5000x128 .f32) (x1 : Vec Ideal S1x128 .f32) (x2 : Vec Ideal S128x64 .f32) :
    Gen.k1_pay1 (F := Ideal) x0 x1 x2 = Cert.LibDenseSteps.dense2 x0 (row x1 (0 : Fin 1)) x2 := by
  unfold Gen.k1_pay1
  exact Cert.LibDenseSteps.block_dense2 _ rfl none x0 x1 x2 _ _ _ _ _

/-! ## Where each window's block sits -/

/-- Decided over the ten grid points: the row operand's block and the result's block have the same row-block
    index and column-block index 0; the bias row and the second matrix are whole arrays, always at block (0, 0);
    the row-block index is at most 9. -/
theorem idx_facts : ∀ t : Fin cfg1.N,
    win1_0.index t (0 : Fin 2) = win1_3.index t (0 : Fin 2)
    ∧ win1_0.index t (1 : Fin 2) = 0
    ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 9 :=
  (by decide +kernel : ∀ t : Fin grid1.N, _)

/-- Every one of the ten row blocks of the result is some grid point's. -/
theorem idx_onto : ∀ q : Fin 10, ∃ t : Fin cfg1.N, win1_3.index t = ![q.val, 0] :=
  (by decide +kernel : ∀ q : Fin 10, ∃ t : Fin grid1.N, win1_3.index t = ![q.val, 0])

variable (V : (c : Dev nD) → (b : Ref sig .tc) → Buf (Elt Ideal) ((c : Thread nD τ).loc b))

/-- The bias window's block is the whole one-row array, at every point. -/
theorem bias_blk (c : Dev nD) (t : Fin cfg1.N) :
    (Gen.iblk1 V c 1 t : Vec Ideal S1x128 .f32) = V c main_v18 := by
  obtain ⟨-, -, -, e10, e11, -, -, -⟩ := idx_facts t
  refine funext fun (y : S1x128.Idx) => ?_
  unfold Gen.iblk1
  rw [View.read_apply]
  show V c main_v18 _ = V c main_v18 y
  refine congrArg (V c main_v18) (funext fun a => Fin.ext ?_)
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- The second matrix's block is the whole matrix, at every point. -/
theorem mat_blk (c : Dev nD) (t : Fin cfg1.N) :
    (Gen.iblk1 V c 2 t : Vec Ideal S128x64 .f32) = V c main_arg5 := by
  obtain ⟨-, -, -, -, -, e20, e21, -⟩ := idx_facts t
  refine funext fun (y : S128x64.Idx) => ?_
  unfold Gen.iblk1
  rw [View.read_apply]
  show V c main_arg5 _ = V c main_arg5 y
  refine congrArg (V c main_arg5) (funext fun a => Fin.ext ?_)
  match a with
  | ⟨0, _⟩ => show win1_2.index t (0 : Fin 2) * 128 + 1 * (y 0).val = (y 0).val; omega
  | ⟨1, _⟩ => show win1_2.index t (1 : Fin 2) * 64 + 1 * (y 1).val = (y 1).val; omega

/-! ## What a point writes back -/

/-- Point t writes back block t of the second dense step of the whole arrays: row p of the block is row
    5000 · (block index) + p of the whole, and that row of the result depends on that row of the row operand, the
    bias and the matrix alone. -/
theorem flushed_eq (c : Dev nD) (t : Fin cfg1.N) :
    (Gen.dat1 (F := Ideal) V c).flushed 3 t
      = ((cfg1.win 3).blk t).view.read (Elt Ideal)
          (Cert.LibDenseSteps.dense2 (V c main_v17) (row (V c main_v18) (0 : Fin 1)) (V c main_arg5)) := by
  show (cfg1.win 3).cut (grid1.coords t) ((Gen.dat1 V c).after 3 t) = _
  rw [Gen.after1_3]
  unfold Gen.out1_3
  rw [View.canon_unit_zero hz]
  simp only [View.ld_unit_zero (S := S5000x128) hz, View.ld_unit_zero (S := S1x128) hz,
    View.ld_unit_zero (S := S128x64) hz]
  rw [pay_eq, bias_blk, mat_blk]
  obtain ⟨e00, e01, e31, -, -, -, -, e3⟩ := idx_facts t
  refine funext fun (y : S5000x64.Idx) => ?_
  obtain ⟨p, n, rfl⟩ : ∃ (p : Fin 5000) (n : Fin 64), y = ix2 p n := ⟨y 0, y 1, eq_ix2 y⟩
  have hp : p.val < 5000 := p.isLt
  have hr : win1_3.index t (0 : Fin 2) * 5000 + p.val < 50000 := by omega
  rw [View.read_apply]
  have hemb : ((cfg1.win 3).blk t).view.emb (ix2 p n)
      = (ix2 (⟨win1_3.index t (0 : Fin 2) * 5000 + p.val, hr⟩ : Fin 50000) n : S50000x64.Idx) := by
    refine funext fun a => Fin.ext ?_
    match a with
    | ⟨0, _⟩ => show win1_3.index t (0 : Fin 2) * 5000 + 1 * p.val = win1_3.index t (0 : Fin 2) * 5000 + p.val; omega
    | ⟨1, _⟩ => show win1_3.index t (1 : Fin 2) * 64 + 1 * n.val = n.val; omega
  rw [hemb]
  show Cert.LibDenseSteps.dense2 (Gen.iblk1 V c 0 t) (row (V c main_v18) (0 : Fin 1)) (V c main_arg5) (ix2 p n) = _
  refine Cert.LibDenseSteps.dense2_rows (V c main_v17) (Gen.iblk1 V c 0 t) _ _ _ p ?_ n
  funext k
  show Gen.iblk1 V c 0 t (ix2 p k) = V c main_v17 (ix2 _ k)
  unfold Gen.iblk1
  rw [View.read_apply]
  refine congrArg (V c main_v17) (funext fun a => Fin.ext ?_)
  match a with
  | ⟨0, _⟩ => show win1_0.index t (0 : Fin 2) * 5000 + 1 * p.val = win1_3.index t (0 : Fin 2) * 5000 + p.val; omega
  | ⟨1, _⟩ => show win1_0.index t (1 : Fin 2) * 128 + 1 * k.val = k.val; omega

/-! ## The blocks cover the array -/

/-- An index of the result array is in point t's block iff each coordinate is in the block's range on its axis. -/
theorem mem_blk (t : Fin cfg1.N) (i : S50000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v19).slice (win1_3.rect t)).set ↔ _
  rw [View.set_slice_whole, Rect.mem_set_unit]
  exact Iff.rfl

/-- Row r of the result lies in row block r / 5000, which some point writes back. -/
theorem cover (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, Gen.flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 64 ≤ (i 1).val ∧ (i 1).val < win1_3.index t (1 : Fin 2) * 64 + 64
    omega

/-! ## The array after the region -/

/-- After the region the result array holds the second dense step of the whole arrays as the region found them:
    entry (r, n) is ∑ k, max (agg r k + b 0 k) 0 * W₂ k n. -/
theorem final (c : Dev nD) :
    (Gen.dat1 (F := Ideal) V c).arrAt 3 cfg1.N
      = Cert.LibDenseSteps.dense2 (V c main_v17) (Cert.DenseRows.row (V c main_v18) (0 : Fin 1)) (V c main_arg5) :=
  (Gen.dat1 V c).arrAt_eq_of_cover 3 _ (fun t _ => flushed_eq V c t) cover

end Cert.KernelIdeal.RegionDense2

end
-- ==== Proof.RefValue.lean ====
/-
  The idealized reference's result, in the vocabulary of the kernel program's host chains.

  The reference is one straight line of host operations: the same cut of the edge list, a `dot_general` of the node
  features with the first weight matrix, the same gather / scale / scatter-addition, the first bias broadcast and
  added, a maximum with zero, a `dot_general` with the second weight matrix, the same gather / scatter-addition,
  the second bias. Reading it stage by stage: the two `dot_general`s (the second with its bias and rectifier) are
  the dense steps `dense1` and `dense2`; everything between and after them is, operation for operation, the
  kernel program's `mid` and `tail` applied to those arrays. So the reference's result is the same term of the
  argument arrays as the kernel program's, and nothing about gathers or scatter-additions is ever needed.
-/
import proofs.«113820_j12567074308662_1_alg».proof.Proof.Gen.ReferenceIdeal.Read
import proofs.«113820_j12567074308662_1_alg».proof.Proof.KernelChain
import proofs.«113820_j12567074308662_1_alg».proof.Proof.LibDenseSteps

set_option maxRecDepth 16384

noncomputable section

namespace Cert.ReferenceIdeal.RefValue

open Cert.ReferenceIdeal Cert.ReferenceIdeal.Read
open Idealize.ShloMosaic Idealize.ShloMosaic.TcCoe Idealize.SL.Sem
open Cert.DenseRows Cert.LibLayerSum Cert.LibDenseSteps
open Cert.KernelIdeal.Chain (srcVec dstVec mid tail)

variable (x0 : (⟨S50000x128, .f32⟩ : BufTy).Contents (Elt Ideal)) (x1 : (⟨S2x800000, .i32⟩ : BufTy).Contents (Elt Ideal))
  (x2 : (⟨S800000, .f32⟩ : BufTy).Contents (Elt Ideal)) (x3 : (⟨S128x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal))

/-- The first `dot_general` is the first dense step. -/
theorem stage_dense1 : val_main_v4 (F := Ideal) x0 x3 = dense1 x0 x3 := by
  unfold val_main_v4
  exact dotGeneral_eq_dense1 _ rfl none x0 x3

/-- Gather, scale by the edge weights and scatter-add: the kernel program's middle chain, operation for operation. -/
theorem stage_mid : val_main_v17 (F := Ideal) x0 x1 x2 x3 = mid (val_main_v4 (F := Ideal) x0 x3) (srcVec x1) (dstVec x1) x2 := rfl

/-- Bias, rectifier and the second `dot_general` are the second dense step. -/
theorem stage_dense2 : val_main_v22 (F := Ideal) x0 x1 x2 x3 x4 x5
    = dense2 (val_main_v17 (F := Ideal) x0 x1 x2 x3) (vec x4) x5 := by
  unfold val_main_v22 val_main_v21 val_main_v20 val_main_v19 val_main_v18 val_main_call0_v0 val_main_call0_cst
  exact host_layer2_eq _ rfl none _ x4 x5 _ _ _ _

/-- Gather, scatter-add and the last bias: the kernel program's last chain, operation for operation. -/
theorem stage_tail : val_main_v35 (F := Ideal) x0 x1 x2 x3 x4 x5 x6
    = tail (val_main_v22 (F := Ideal) x0 x1 x2 x3 x4 x5) (srcVec x1) (dstVec x1) x6 := rfl

/-- The reference's result as one term of its arguments: the kernel program's. -/
theorem result_eq : val_main_v35 (F := Ideal) x0 x1 x2 x3 x4 x5 x6
    = tail (dense2 (mid (dense1 x0 x3) (srcVec x1) (dstVec x1) x2) (vec x4) x5) (srcVec x1) (dstVec x1) x6 := by
  rw [stage_tail, stage_dense2, stage_mid, stage_dense1]

end Cert.ReferenceIdeal.RefValue

end
-- ==== Proof.lean ====
/-
  A two-layer graph convolution: the Pallas program against its jnp reference, on the extended reals.

  Both programs compute, for node features `x`, an edge list `e` with weights `w`, weight matrices `W₁`, `W₂` and
  biases `b₁`, `b₂`,
      out = A (max (A_w (x · W₁) + b₁, 0) · W₂) + b₂,
  where `A_w` gathers the row of each edge's source, scales it by the edge's weight and adds it into the row of the
  edge's destination, and `A` does the same without weights. The kernel program computes the two matrix products
  in two regions, each on ten blocks of 5000 rows (its operands rounded to a narrower float format on the way into
  the product, which is the identity on the extended reals), and leaves the gathers, scatter-additions and the
  last bias to host operations; the reference is host operations throughout.
  The two sides agree without any algebraic law beyond what a matrix product IS: a product of a block of rows is
  that block of rows of the whole product, entry by entry the same sum `∑ k, a r k * W k n` in the same grouping
  (Proof/LibDenseSteps.lean; the regions' output arrays in Proof/RegionDense1.lean and
  Proof/RegionDense2.lean). The aggregations `A_w`, `A` are the same operations on both sides and are never
  opened (Proof/KernelChain.lean): both results are the one term `tail (dense2 (mid (dense1 x W₁) …) b₁ W₂) … b₂` of
  the argument arrays (Proof/KernelValue.lean for the kernel program, through its run Proof/KernelRun.lean;
  Proof/RefValue.lean for the reference). Finiteness of the inputs is not used.
  The three frames are the programs' runs with the results dropped; `preserves` has no conjunct (the idealized
  kernel program is the kernel program's own text read on the extended reals).
-/
import proofs.«113820_j12567074308662_1_alg».proof.Defs
import proofs.«113820_j12567074308662_1_alg».proof.Proof.Gen.Kernel
import proofs.«113820_j12567074308662_1_alg».proof.Proof.Gen.Kernel.Skeleton
import proofs.«113820_j12567074308662_1_alg».proof.Proof.Gen.Kernel.Launch
import proofs.«113820_j12567074308662_1_alg».proof.Proof.Gen.Kernel.Points
import proofs.«113820_j12567074308662_1_alg».proof.Proof.Gen.Kernel.Frame
import proofs.«113820_j12567074308662_1_alg».proof.Proof.Gen.KernelIdeal
import proofs.«113820_j12567074308662_1_alg».proof.Proof.Gen.KernelIdeal.Skeleton
import proofs.«113820_j12567074308662_1_alg».proof.Proof.Gen.KernelIdeal.Launch
import proofs.«113820_j12567074308662_1_alg».proof.Proof.Gen.KernelIdeal.Points
import proofs.«113820_j12567074308662_1_alg».proof.Proof.Gen.KernelIdeal.Frame
import proofs.«113820_j12567074308662_1_alg».proof.Proof.Gen.ReferenceIdeal
import proofs.«113820_j12567074308662_1_alg».proof.Proof.Gen.Pre_finite_inputs
import proofs.«113820_j12567074308662_1_alg».proof.Proof.Gen.ReferenceIdeal.Run
import proofs.«113820_j12567074308662_1_alg».proof.Proof.Gen.ReferenceIdeal.Read
import proofs.«113820_j12567074308662_1_alg».proof.Proof.KernelRun
import proofs.«113820_j12567074308662_1_alg».proof.Proof.KernelValue
import proofs.«113820_j12567074308662_1_alg».proof.Proof.RegionDense1
import proofs.«113820_j12567074308662_1_alg».proof.Proof.RegionDense2
import proofs.«113820_j12567074308662_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- And the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories agreeing on the arguments both programs end with the result buffer at the one term
    `Cert.KernelIdeal.Value.result` of the kernel program's argument arrays: the kernel program by its run and the
    walk back through its segments, the reference by its run read stage by stage, the arguments' agreement
    rewritten. -/
theorem algebraic : Cert.algebraic_KernelIdeal_ReferenceIdeal := by
  intro m ρ m' ρ' _ hagree
  refine ⟨fun c => Cert.KernelIdeal.Value.result m c, ?_, ?_⟩
  · exact (θ_run Cert.KernelIdeal.defs _ _).mono
      (fun _ h c => ⟨(h c).1.trans (Cert.KernelIdeal.Value.w5_v32 m ρ c
          Cert.KernelIdeal.RegionDense1.final Cert.KernelIdeal.RegionDense2.final), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v35_eq, Cert.ReferenceIdeal.RefValue.result_eq,
      (hagree c).1, (hagree c).2.1, (hagree c).2.2.1, (hagree c).2.2.2.1, (hagree c).2.2.2.2.1,
      (hagree c).2.2.2.2.2.1, (hagree c).2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
